-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512 : Shape := ⟨2, ![128, 512]⟩
abbrev S512x128x32 : Shape := ⟨3, ![512, 128, 32]⟩
abbrev S_ : Shape := ⟨0, ![]⟩

class Facts : Prop where
  bcast_S_S128x512 : S_.BroadcastsInDim S128x512 (![] : Fin 0 → Fin S128x512.rank)
  reducesTo_S128x512_S_d0_1 : S128x512.ReducesTo [0, 1] S_
  h_S_ : 0 < S_.numel
  bcast_S_S512x128x32 : S_.BroadcastsInDim S512x128x32 (![] : Fin 0 → Fin S512x128x32.rank)
  reducesTo_S512x128x32_S_d0_1_2 : S512x128x32.ReducesTo [0, 1, 2] S_

variable [Facts]

def fn {F : FTy → Type} [FloatOps F] (main_arg0 : FVec F S128x512 .f32) (main_arg1 : FVec F S512x128x32 .f32) : IVec S_ 1 :=
  let main_v0 : FVec F S128x512 .f32 := Host.absf main_arg0
  let main_cst : FVec F S_ .f32 := constant S_ .f32 0x7F800000#32
  let main_v1 : FVec F S128x512 .f32 := broadcastInDim S128x512 ![] bcast_S_S128x512 main_cst
  let main_v2 : IVec S128x512 1 := cmpf .olt main_v0 main_v1
  let main_c : IVec S_ 1 := constantI S_ 1 1#1
  let main_v3 : IVec S_ 1 := (fun x v => Host.reduce IntOp.andi x v reducesTo_S128x512_S_d0_1 h_S_) main_v2 main_c
  let main_v4 : FVec F S512x128x32 .f32 := Host.absf main_arg1
  let main_cst_0 : FVec F S_ .f32 := constant S_ .f32 0x7F800000#32
  let main_v5 : FVec F S512x128x32 .f32 := broadcastInDim S512x128x32 ![] bcast_S_S512x128x32 main_cst_0
  let main_v6 : IVec S512x128x32 1 := cmpf .olt main_v4 main_v5
  let main_c_1 : IVec S_ 1 := constantI S_ 1 1#1
  let main_v7 : IVec S_ 1 := (fun x v => Host.reduce IntOp.andi x v reducesTo_S512x128x32_S_d0_1_2 h_S_) main_v6 main_c_1
  let main_v8 : IVec S_ 1 := andi main_v3 main_v7
  main_v8
-- ==== Kernel.lean ====
abbrev S128x512 : Shape := ⟨2, ![128, 512]⟩
abbrev S512x128x32 : Shape := ⟨3, ![512, 128, 32]⟩
abbrev S512x4096 : Shape := ⟨2, ![512, 4096]⟩
abbrev S128x128 : Shape := ⟨2, ![128, 128]⟩
abbrev S512x1024 : Shape := ⟨2, ![512, 1024]⟩
abbrev S32x128 : Shape := ⟨2, ![32, 128]⟩
abbrev S128x1024 : Shape := ⟨2, ![128, 1024]⟩
abbrev S1024x128 : Shape := ⟨2, ![1024, 128]⟩
abbrev S32x32x128 : Shape := ⟨3, ![32, 32, 128]⟩
abbrev S32x128x128 : Shape := ⟨3, ![32, 128, 128]⟩
abbrev S32x1x128 : Shape := ⟨3, ![32, 1, 128]⟩
abbrev S32x128x1 : Shape := ⟨3, ![32, 128, 1]⟩
abbrev S128x640 : Shape := ⟨2, ![128, 640]⟩

abbrev nBuf : Space → Nat
  | .hbm => 8
  | .vmem => 5
  | .smem => 0
  | _ => 0

abbrev bufTy : (tb : Table) → Fin (tcTables nBuf tb) → BufTy
  | .hbm, ⟨0, _⟩ => ⟨S128x512, .f32⟩
  | .hbm, ⟨1, _⟩ => ⟨S512x128x32, .f32⟩
  | .hbm, ⟨2, _⟩ => ⟨S128x512, .bf16⟩
  | .hbm, ⟨3, _⟩ => ⟨S512x4096, .f32⟩
  | .hbm, ⟨4, _⟩ => ⟨S512x4096, .bf16⟩
  | .hbm, ⟨5, _⟩ => ⟨S128x128, .f32⟩
  | .hbm, ⟨6, _⟩ => ⟨S128x128, .f32⟩
  | .hbm, ⟨7, _⟩ => ⟨S128x640, .f32⟩
  | .local _ .vmem, ⟨0, _⟩ => ⟨S128x512, .bf16⟩
  | .local _ .vmem, ⟨1, _⟩ => ⟨S512x1024, .bf16⟩
  | .local _ .vmem, ⟨2, _⟩ => ⟨S512x1024, .bf16⟩
  | .local _ .vmem, ⟨3, _⟩ => ⟨S32x128, .f32⟩
  | .local _ .vmem, ⟨4, _⟩ => ⟨S32x128, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  shapeCasts_S512x128x32_S512x4096 : S512x128x32.ShapeCasts S512x4096
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  transposes_S128x1024_p1_0_S1024x128 : S128x1024.Transposes [1, 0] S1024x128
  shapeCasts_S1024x128_S32x32x128 : S1024x128.ShapeCasts S32x32x128
  slices_S32x32x128_o0_0_0_S32x1x128 : S32x32x128.Slices ![0, 0, 0] S32x1x128
  shapeCasts_S32x1x128_S32x128 : S32x1x128.ShapeCasts S32x128
  shapeCasts_S32x128_S32x128x1 : S32x128.ShapeCasts S32x128x1
  shapeCasts_S32x128_S32x1x128 : S32x128.ShapeCasts S32x1x128
  broadcasts_S32x128x1_S32x128x128 : S32x128x1.Broadcasts S32x128x128
  broadcasts_S32x1x128_S32x128x128 : S32x1x128.Broadcasts S32x128x128
  slices_S32x32x128_o0_1_0_S32x1x128 : S32x32x128.Slices ![0, 1, 0] S32x1x128
  slices_S32x32x128_o0_2_0_S32x1x128 : S32x32x128.Slices ![0, 2, 0] S32x1x128
  slices_S32x32x128_o0_3_0_S32x1x128 : S32x32x128.Slices ![0, 3, 0] S32x1x128
  slices_S32x32x128_o0_4_0_S32x1x128 : S32x32x128.Slices ![0, 4, 0] S32x1x128
  slices_S32x32x128_o0_5_0_S32x1x128 : S32x32x128.Slices ![0, 5, 0] S32x1x128
  slices_S32x32x128_o0_6_0_S32x1x128 : S32x32x128.Slices ![0, 6, 0] S32x1x128
  slices_S32x32x128_o0_7_0_S32x1x128 : S32x32x128.Slices ![0, 7, 0] S32x1x128
  slices_S32x32x128_o0_8_0_S32x1x128 : S32x32x128.Slices ![0, 8, 0] S32x1x128
  slices_S32x32x128_o0_9_0_S32x1x128 : S32x32x128.Slices ![0, 9, 0] S32x1x128
  slices_S32x32x128_o0_10_0_S32x1x128 : S32x32x128.Slices ![0, 10, 0] S32x1x128
  slices_S32x32x128_o0_11_0_S32x1x128 : S32x32x128.Slices ![0, 11, 0] S32x1x128
  slices_S32x32x128_o0_12_0_S32x1x128 : S32x32x128.Slices ![0, 12, 0] S32x1x128
  slices_S32x32x128_o0_13_0_S32x1x128 : S32x32x128.Slices ![0, 13, 0] S32x1x128
  slices_S32x32x128_o0_14_0_S32x1x128 : S32x32x128.Slices ![0, 14, 0] S32x1x128
  slices_S32x32x128_o0_15_0_S32x1x128 : S32x32x128.Slices ![0, 15, 0] S32x1x128
  slices_S32x32x128_o0_16_0_S32x1x128 : S32x32x128.Slices ![0, 16, 0] S32x1x128
  slices_S32x32x128_o0_17_0_S32x1x128 : S32x32x128.Slices ![0, 17, 0] S32x1x128
  slices_S32x32x128_o0_18_0_S32x1x128 : S32x32x128.Slices ![0, 18, 0] S32x1x128
  slices_S32x32x128_o0_19_0_S32x1x128 : S32x32x128.Slices ![0, 19, 0] S32x1x128
  slices_S32x32x128_o0_20_0_S32x1x128 : S32x32x128.Slices ![0, 20, 0] S32x1x128
  slices_S32x32x128_o0_21_0_S32x1x128 : S32x32x128.Slices ![0, 21, 0] S32x1x128
  slices_S32x32x128_o0_22_0_S32x1x128 : S32x32x128.Slices ![0, 22, 0] S32x1x128
  slices_S32x32x128_o0_23_0_S32x1x128 : S32x32x128.Slices ![0, 23, 0] S32x1x128
  slices_S32x32x128_o0_24_0_S32x1x128 : S32x32x128.Slices ![0, 24, 0] S32x1x128
  slices_S32x32x128_o0_25_0_S32x1x128 : S32x32x128.Slices ![0, 25, 0] S32x1x128
  slices_S32x32x128_o0_26_0_S32x1x128 : S32x32x128.Slices ![0, 26, 0] S32x1x128
  slices_S32x32x128_o0_27_0_S32x1x128 : S32x32x128.Slices ![0, 27, 0] S32x1x128
  slices_S32x32x128_o0_28_0_S32x1x128 : S32x32x128.Slices ![0, 28, 0] S32x1x128
  slices_S32x32x128_o0_29_0_S32x1x128 : S32x32x128.Slices ![0, 29, 0] S32x1x128
  slices_S32x32x128_o0_30_0_S32x1x128 : S32x32x128.Slices ![0, 30, 0] S32x1x128
  slices_S32x32x128_o0_31_0_S32x1x128 : S32x32x128.Slices ![0, 31, 0] S32x1x128
  reduces_S32x128x128_S32x128 : S32x128x128.Reduces [1] S32x128
  inb_S32x128_S32x128_0_0 : ∀ a, (![0, 0] : Fin 2 → Nat) a + S32x128.size a ≤ S32x128.size a
  h_S32x128 : 0 < S32x128.numel
  transposes_S128x128_S128x128_1_0 : S128x128.Transposes [1, 0] S128x128
  concatenates_S128x512_S128x128_S128x640_d1 : Shape.Concatenates [S128x512, S128x128] S128x640 1
  dot_S128x512_S512x1024_S128x1024_1_0_0_1_n_n_wf : DotDims.WF S128x512 S512x1024 S128x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S128x512.size a
  hwx0_0 : ∀ i : grid0.Coords, EltTy.bits .bf16 = 32 ∨ (Rect.block (s := S128x512) S128x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x4096.size a
  hwx0_1 : ∀ i : grid0.Coords, EltTy.bits .bf16 = 32 ∨ (Rect.block (s := S512x4096) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S128x128.size a
  hwx0_2 : ∀ i : grid0.Coords, EltTy.bits .f32 = 32 ∨ (Rect.block (s := S128x128) S32x128.size (cc0_transform_2 i) (hinb0_2 i)).WholeWords (EltTy.packing .f32)

variable [Facts₀]

def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf

abbrev win0_0 : Pipeline.Window sig grid0 :=
  Pipeline.Window.ofSpec (Memref.whole main_v0) S128x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S32x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x512 : Shape := ⟨2, ![128, 512]⟩
abbrev S512x128x32 : Shape := ⟨3, ![512, 128, 32]⟩
abbrev S512x4096 : Shape := ⟨2, ![512, 4096]⟩
abbrev S128x4096 : Shape := ⟨2, ![128, 4096]⟩
abbrev S128x128x32 : Shape := ⟨3, ![128, 128, 32]⟩
abbrev S1x128x128x32 : Shape := ⟨4, ![1, 128, 128, 32]⟩
abbrev S128x1x128x32 : Shape := ⟨4, ![128, 1, 128, 32]⟩
abbrev S128x128x128x32 : Shape := ⟨4, ![128, 128, 128, 32]⟩
abbrev S_ : Shape := ⟨0, ![]⟩
abbrev S128x128x128 : Shape := ⟨3, ![128, 128, 128]⟩
abbrev S128x128 : Shape := ⟨2, ![128, 128]⟩
abbrev S128x640 : Shape := ⟨2, ![128, 640]⟩

abbrev nBuf : Space → Nat
  | .hbm => 21
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S512x128x32, .f32⟩
  | .hbm, ⟨2, _⟩ => ⟨S512x4096, .f32⟩
  | .hbm, ⟨3, _⟩ => ⟨S128x4096, .f32⟩
  | .hbm, ⟨4, _⟩ => ⟨S128x128x32, .f32⟩
  | .hbm, ⟨5, _⟩ => ⟨S1x128x128x32, .f32⟩
  | .hbm, ⟨6, _⟩ => ⟨S128x1x128x32, .f32⟩
  | .hbm, ⟨7, _⟩ => ⟨S128x128x128x32, .f32⟩
  | .hbm, ⟨8, _⟩ => ⟨S128x128x128x32, .f32⟩
  | .hbm, ⟨9, _⟩ => ⟨S128x128x128x32, .f32⟩
  | .hbm, ⟨10, _⟩ => ⟨S128x128x128x32, .f32⟩
  | .hbm, ⟨11, _⟩ => ⟨S_, .f32⟩
  | .hbm, ⟨12, _⟩ => ⟨S128x128x128, .f32⟩
  | .hbm, ⟨13, _⟩ => ⟨S128x128x128, .f32⟩
  | .hbm, ⟨14, _⟩ => ⟨S128x128x128, .f32⟩
  | .hbm, ⟨15, _⟩ => ⟨S_, .f32⟩
  | .hbm, ⟨16, _⟩ => ⟨S128x128, .f32⟩
  | .hbm, ⟨17, _⟩ => ⟨S_, .f32⟩
  | .hbm, ⟨18, _⟩ => ⟨S128x128, .f32⟩
  | .hbm, ⟨19, _⟩ => ⟨S128x128, .f32⟩
  | .hbm, ⟨20, _⟩ => ⟨S128x640, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  shapeCasts_S512x128x32_S512x4096 : S512x128x32.ShapeCasts S512x4096
  shapeCasts_S128x4096_S128x128x32 : S128x4096.ShapeCasts S128x128x32
  bcast_S128x128x32_S1x128x128x32_1_2_3 : S128x128x32.BroadcastsInDim S1x128x128x32 (![1, 2, 3] : Fin 3 → Fin S1x128x128x32.rank)
  bcast_S128x128x32_S128x1x128x32_0_2_3 : S128x128x32.BroadcastsInDim S128x1x128x32 (![0, 2, 3] : Fin 3 → Fin S128x1x128x32.rank)
  bcast_S1x128x128x32_S128x128x128x32_0_1_2_3 : S1x128x128x32.BroadcastsInDim S128x128x128x32 (![0, 1, 2, 3] : Fin 4 → Fin S128x128x128x32.rank)
  bcast_S128x1x128x32_S128x128x128x32_0_1_2_3 : S128x1x128x32.BroadcastsInDim S128x128x128x32 (![0, 1, 2, 3] : Fin 4 → Fin S128x128x128x32.rank)
  reducesTo_S128x128x128x32_S128x128x128_d3 : S128x128x128x32.ReducesTo [3] S128x128x128
  h_S_ : 0 < S_.numel
  reducesTo_S128x128x128_S128x128_d0 : S128x128x128.ReducesTo [0] S128x128
  bcast_S_S128x128 : S_.BroadcastsInDim S128x128 (![] : Fin 0 → Fin S128x128.rank)
  concatenates_S128x512_S128x128_S128x640_d1 : Shape.Concatenates [S128x512, S128x128] S128x640 1
  dot_S128x512_S512x4096_S128x4096_1_0_0_1_n_n_wf : DotDims.WF S128x512 S512x4096 S128x4096 [1] [0] [0] [1] [] []

variable [Facts₀]

def dot_S128x512_S512x4096_S128x4096_1_0_0_1_n_n : DotDims S128x512 S512x4096 S128x4096 where
  lhsContracting := [1]
  rhsContracting := [0]
  lhsNonContracting := [0]
  rhsNonContracting := [1]
  lhsBatch := []
  rhsBatch := []
  wf := dot_S128x512_S512x4096_S128x4096_1_0_0_1_n_n_wf

class Facts : Prop extends Facts₀ where

variable [Facts]
-- ==== Proof.Spec.lean ====
/-
  The function both programs compute, over the extended reals.

  With `M b o k = ∑ f, x (b, f) · T (f, o, k)` (row `b` of `x` against the column `(o, k)` of `T`), the feature
  `(j, o)` is `(∑ i, exp (-(∑ k, |M j o k - M i o k|))) - 1`: for every batch row `i` the L1 distance, over the
  32 kernel coordinates `k`, between rows `j` and `i` of the projection at output feature `o`; its negative
  exponential summed over `i`; and one taken off for the term `i = j`.

  The absolute value is spelt as the float operations spell it, `max d (-d)`, and is symmetric in its two arguments on
  ALL extended reals (infinite ones included), so no finiteness of the inputs is used anywhere.
-/
import Idealize.ShloMosaic.PureOps.Ideal
import Idealize.ShloMosaic.PureOps.Ideal.Laws
import Idealize.ShloMosaic.Lib.ValueIdx

noncomputable section

namespace Cert.Mbd

open Idealize.ShloMosaic Idealize.ShloMosaic.ValueIdx

/-- `|a - b|` as the float operations compute it: the larger of the difference and its negative. -/
def absd (a b : EReal) : EReal := max (a - b) (-(a - b))

/-- The distance is symmetric, at the infinities too (where `a - b` and `b - a` are both an infinity of either sign, or both
    the junk value `⊥`, whose larger-with-its-negative is `⊤` on both sides). -/
theorem absd_comm (a b : EReal) : absd a b = absd b a := by
  unfold absd
  induction a using EReal.rec <;> induction b using EReal.rec
  all_goals first
    | rfl
    | (rw [← EReal.coe_sub, ← EReal.coe_sub, ← EReal.coe_neg, ← EReal.coe_neg, neg_sub, neg_sub, max_comm])
    | simp

/-- The projection: row `b` of `x` against the column `(o, k)` of `T`. -/
def proj (x : (⟨2, ![128, 512]⟩ : Shape).Idx → EReal) (T : (⟨3, ![512, 128, 32]⟩ : Shape).Idx → EReal)
    (b o : Fin 128) (k : Fin 32) : EReal :=
  ∑ f : Fin 512, x (ix2 b f) * T (ix3 f o k)

/-- The L1 distance between rows `j` and `i` of a projection `M` at feature `o` (the features indexed by any type: the
    reference has all 128 at once, a grid point of the kernel its 32). -/
def l1 {ι : Type} (M : Fin 128 → ι → Fin 32 → EReal) (j i : Fin 128) (o : ι) : EReal :=
  ∑ k : Fin 32, absd (M j o k) (M i o k)

theorem l1_comm {ι : Type} (M : Fin 128 → ι → Fin 32 → EReal) (j i : Fin 128) (o : ι) : l1 M j i o = l1 M i j o :=
  Finset.sum_congr rfl fun k _ => absd_comm _ _

/-- The feature `(j, o)` of a projection `M`: the negative exponentials of the distances from row `j`, summed over the rows,
    less the float one. -/
def featOf {ι : Type} (M : Fin 128 → ι → Fin 32 → EReal) (j : Fin 128) (o : ι) : EReal :=
  (∑ i : Fin 128, Ideal.exp (-(l1 M j i o))) - Ideal.ofBits .f32 0x3F800000#32

/-- A feature depends on the projection only at that feature. -/
theorem featOf_congr {ι ι' : Type} (M : Fin 128 → ι → Fin 32 → EReal) (M' : Fin 128 → ι' → Fin 32 → EReal) (o : ι) (o' : ι')
    (h : ∀ b k, M b o k = M' b o' k) (j : Fin 128) : featOf M j o = featOf M' j o' := by
  unfold featOf l1
  simp only [h]

/-- The feature array `[128, 128]` (batch row, output feature) of the inputs. -/
def feat (x : (⟨2, ![128, 512]⟩ : Shape).Idx → EReal) (T : (⟨3, ![512, 128, 32]⟩ : Shape).Idx → EReal) :
    (⟨2, ![128, 128]⟩ : Shape).Idx → EReal :=
  fun i => featOf (proj x T) (i 0) (i 1)

end Cert.Mbd

end
-- ==== Proof.RefSide.lean ====
/-
  The reference, read index by index, is the feature function.

  The reference projects once (`x` against `T` flattened to [512, 4096], re-shaped to [128, 128, 32]), broadcasts the
  projection along a new row axis in the two ways, subtracts, takes absolute values, sums over the kernel coordinate,
  negates, exponentiates, sums over the FIRST row axis and takes one off. At the index `(i, j, o, k)` of the broadcast pair
  the difference is `M j o k - M i o k`, and the outer sum runs over `i`: feature `(j, o)` as `Cert.Mbd.featOf` states it.
-/
import proofs.«165932_j55035710931183_2_alg».proof.Proof.Gen.ReferenceIdeal.Read
import proofs.«165932_j55035710931183_2_alg».proof.Proof.Spec

noncomputable section

namespace Cert.Mbd.Ref

open Cert.ReferenceIdeal Cert.ReferenceIdeal.Read Idealize.ShloMosaic Idealize.ShloMosaic.ValueIdx Cert.Mbd

/-- The re-shaped product at `(b, o, k)` is the projection: flat column `32·o + k` of the flattened `T` is its column
    `(o, k)`. -/
theorem proj_eq (x0 : (⟨S128x512, .f32⟩ : BufTy).Contents (Elt Ideal)) (x1 : (⟨S512x128x32, .f32⟩ : BufTy).Contents (Elt Ideal))
    (b o : Fin 128) (k : Fin 32) :
    val_main_v2 (F := Ideal) x0 x1 (ix3 b o k) = proj x0 x1 b o k := by
  rw [val_main_v2_apply, val_main_v1_apply]
  unfold proj
  refine Finset.sum_congr rfl fun f _ => ?_
  rw [val_main_v0_apply]
  have hb : b.val < 128 := b.isLt
  have ho : o.val < 128 := o.isLt
  have hk : k.val < 32 := k.isLt
  have hf : f.val < 512 := f.isLt
  have e1 : lidx_main_v1 (idx_main_v2 (ix3 b o k)) f = ix2 b f := funext fun a => Fin.ext (by
    match a with
    | ⟨0, _⟩ => show ((b.val * 128 + o.val) * 32 + k.val) / 4096 = b.val; omega
    | ⟨1, _⟩ => rfl)
  have e2 : idx_main_v0 (ridx_main_v1 (idx_main_v2 (ix3 b o k)) f) = ix3 f o k := funext fun a => Fin.ext (by
    match a with
    | ⟨0, _⟩ => show (f.val * 4096 + ((b.val * 128 + o.val) * 32 + k.val) % 4096) / 4096 = f.val; omega
    | ⟨1, _⟩ => show (f.val * 4096 + ((b.val * 128 + o.val) * 32 + k.val) % 4096) / 32 % 128 = o.val; omega
    | ⟨2, _⟩ => show (f.val * 4096 + ((b.val * 128 + o.val) * 32 + k.val) % 4096) % 32 = k.val; omega)
  rw [e1, e2]

/-- The reference's feature array is `Cert.Mbd.feat` of the arguments. -/
theorem features_eq (x0 : (⟨S128x512, .f32⟩ : BufTy).Contents (Elt Ideal)) (x1 : (⟨S512x128x32, .f32⟩ : BufTy).Contents (Elt Ideal)) :
    val_main_v14 (F := Ideal) x0 x1 = feat x0 x1 := by
  funext i
  obtain ⟨j, o, rfl⟩ : ∃ (j : Fin 128) (o : Fin 128), i = ix2 j o := ⟨i 0, i 1, eq_ix2 i⟩
  rw [val_main_v14_apply, val_main_v12_apply, val_main_v13_apply, val_main_cst_1_apply, val_main_cst_0_apply]
  show (Ideal.ofBits .f32 0x00000000#32 + _) - Ideal.ofBits .f32 0x3F800000#32 = featOf (proj x0 x1) j o
  rw [Ideal.ofBits_zero_f32, zero_add]
  unfold featOf
  refine congrArg (· - _) (Finset.sum_congr rfl fun i _ => ?_)
  rw [val_main_v11_apply, val_main_v10_apply, val_main_v9_apply, val_main_cst_apply]
  show Ideal.exp (-(Ideal.ofBits .f32 0x00000000#32 + _)) = _
  rw [Ideal.ofBits_zero_f32, zero_add]
  unfold l1
  refine congrArg (fun s => Ideal.exp (-s)) (Finset.sum_congr rfl fun k _ => ?_)
  rw [val_main_v8_apply, val_main_v7_apply, val_main_v5_apply, val_main_v6_apply, val_main_v3_apply, val_main_v4_apply]
  have e5 : idx_main_v3 (idx_main_v5 (idx_main_v9 (idx_main_v12 (ix2 j o) i) k)) = ix3 j o k := funext fun a => Fin.ext (by
    match a with
    | ⟨0, _⟩ => rfl
    | ⟨1, _⟩ => rfl
    | ⟨2, _⟩ => rfl)
  have e6 : idx_main_v4 (idx_main_v6 (idx_main_v9 (idx_main_v12 (ix2 j o) i) k)) = ix3 i o k := funext fun a => Fin.ext (by
    match a with
    | ⟨0, _⟩ => rfl
    | ⟨1, _⟩ => rfl
    | ⟨2, _⟩ => rfl)
  rw [e5, e6, proj_eq, proj_eq]
  rfl

end Cert.Mbd.Ref

end
-- ==== Proof.LibRank3Keepdims.lean ====
/-
  Rank-2 arrays placed in a rank-3 box along a new unit axis, read at an index written by coordinates.

  A matrix `w : [a, c]` becomes a column stack `[a, c, 1]` or a row stack `[a, 1, c]` by a shape cast, and either is then
  broadcast along its unit axis. Read at `(i, j, l)` the first is `w (i, j)` and the second `w (i, l)`: the pair whose
  difference is the table of all pairwise differences `w (i, j) - w (i, l)` of each row `i`. With them: the row
  `[a, 1, c]` cut out of a rank-3 array along its middle axis and cast back to a matrix `[a, c]`.
  (The library's Lib/ValueLayout.lean has the leading-unit-axis casts and the rank-2 row broadcast; these are the
  trailing- and middle-unit-axis forms at rank 3, in its style.)
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    rw [Shape.rowMajor_val_two, Shape.rowMajor_val_three]
    obtain rfl : u = 0 := Subsingleton.elim _ _
    show i.val * b + j.val = (i.val * b + j.val) * 1 + 0
    rw [Nat.mul_one, Nat.add_zero])

/-- An `[a, c]` array cast to `[a, 1, c]` reads, at `(i, u, l)`, the operand at `(i, l)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (l : Fin c) :
    shapeCast ⟨3, ![a, 1, c]⟩ x h (ix3 i u l) = x (ix2 i l) :=
  shapeCast_apply x h _ _ (by
    rw [Shape.rowMajor_val_two, Shape.rowMajor_val_three]
    obtain rfl : u = 0 := Subsingleton.elim _ _
    show i.val * c + l.val = (i.val * 1 + 0) * c + l.val
    rw [Nat.mul_one, Nat.add_zero])

/-- An `[a, 1, c]` array cast to `[a, c]` reads, at `(i, l)`, the operand at `(i, 0, l)`. -/
theorem shapeCast_a1c_ac_apply {a c : ℕ} (x : (⟨3, ![a, 1, c]⟩ : Shape).Idx → α)
    (h : (⟨3, ![a, 1, c]⟩ : Shape).ShapeCasts ⟨2, ![a, c]⟩) (i : Fin a) (l : Fin c) :
    shapeCast ⟨2, ![a, c]⟩ x h (ix2 i l) = x (ix3 i (0 : Fin 1) l) :=
  shapeCast_apply x h _ _ (by
    rw [Shape.rowMajor_val_three, Shape.rowMajor_val_two]
    show (i.val * 1 + 0) * c + l.val = i.val * c + l.val
    rw [Nat.mul_one, Nat.add_zero])

/-- An `[a, b, 1]` array broadcast to `[a, b, c]` reads, at `(i, j, l)`, the operand's one entry `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, l)`, the operand's one row entry `(i, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (l : Fin c) :
    broadcastTo ⟨3, ![a, b, c]⟩ v h (ix3 i j l) = v (ix3 i (0 : Fin 1) l) := by
  refine broadcastTo_apply v h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if c = 1 then 0 else l.val
    split
    · have := l.isLt; omega
    · rfl

/-- A matrix `w : [a, b]` stood up as columns `[a, b, 1]` and broadcast to `[a, b, c]` reads `w (i, j)` at `(i, j, l)`. -/
theorem broadcastTo_cols_apply {a b c : ℕ} (w : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (i : Fin a) (j : Fin b) (l : Fin c) :
    broadcastTo ⟨3, ![a, b, c]⟩ (shapeCast ⟨3, ![a, b, 1]⟩ w h) h' (ix3 i j l) = w (ix2 i j) :=
  (broadcastTo_ab1_abc_apply _ h' i j l).trans (shapeCast_ab_ab1_apply w h i j 0)

/-- A matrix `w : [a, c]` laid down as rows `[a, 1, c]` and broadcast to `[a, b, c]` reads `w (i, l)` at `(i, j, l)`. -/
theorem broadcastTo_rows_apply {a b c : ℕ} (w : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (i : Fin a) (j : Fin b) (l : Fin c) :
    broadcastTo ⟨3, ![a, b, c]⟩ (shapeCast ⟨3, ![a, 1, c]⟩ w h) h' (ix3 i j l) = w (ix2 i l) :=
  (broadcastTo_a1c_abc_apply _ h' i j l).trans (shapeCast_ac_a1c_apply w h i 0 l)

/-- The matrix at middle coordinate `o` of a rank-3 array — the slice `[a, 1, c]` from `o` along axis 1, cast to
    `[a, c]` — reads, at `(i, l)`, the array at `(i, o, l)`. -/
theorem sliceRow_apply {a n c : ℕ} (o : ℕ) (X : (⟨3, ![a, n, c]⟩ : Shape).Idx → α)
    (h : (⟨3, ![a, n, c]⟩ : Shape).Slices ![0, o, 0] ⟨3, ![a, 1, c]⟩)
    (h' : (⟨3, ![a, 1, c]⟩ : Shape).ShapeCasts ⟨2, ![a, c]⟩) (i : Fin a) (l : Fin c) :
    shapeCast ⟨2, ![a, c]⟩ (extractStridedSlice ⟨3, ![a, 1, c]⟩ ![0, o, 0] X h) h' (ix2 i l)
      = X (ix3 i ⟨o, Nat.lt_of_lt_of_le (Nat.lt_succ_self o) (h.2 1)⟩ l) :=
  (shapeCast_a1c_ac_apply _ h' i l).trans (slice3_axis1_apply o X h i (0 : Fin 1) l _ rfl)

end Idealize.ShloMosaic.ValueIdx
-- ==== Proof.KSteps.lean ====
/-
  The kernel body's accumulation of pairwise distances, read at an index.

  From the re-shaped projection `v6 : [32, 32, 128]` (local feature `c`, kernel coordinate `k`, batch row) the body takes,
  for each `k` in turn, the matrix `v6 (·, k, ·) : [32, 128]`, stands it up as columns and lays it down as rows of a
  `[32, 128, 128]` box, subtracts the two and adds the absolute value into a running box that started at zero. At
  `(c, i, j)` the step for `k` adds `|v6 (c, k, i) - v6 (c, k, j)|`; the 32 steps are printed one after another and are cut
  into stretches, each stretch one function of the projection and of the box so far.
-/
import proofs.«165932_j55035710931183_2_alg».proof.Proof.Gen.KernelIdeal.Skeleton
import proofs.«165932_j55035710931183_2_alg».proof.Proof.Spec
import proofs.«165932_j55035710931183_2_alg».proof.Proof.LibRank3Keepdims

noncomputable section

namespace Cert.Mbd.Ker

open Cert.KernelIdeal Cert.KernelIdeal.Gen Idealize.ShloMosaic Idealize.ShloMosaic.ValueIdx Cert.Mbd

/-- The term step `k` adds at `(c, i, j)`. -/
def dd (v6 : FVec Ideal S32x32x128 .f32) (c : Fin 32) (i j : Fin 128) (k : ℕ) (hk : k < 32) : EReal :=
  absd (v6 (ix3 c ⟨k, hk⟩ i)) (v6 (ix3 c ⟨k, hk⟩ j))

theorem absf_apply {s : Shape} {φ : FTy} (a : FVec Ideal s φ) (i : s.Idx) : absf a i = max (a i) (-(a i)) := rfl

/-- One step's term, from the matrix `w = v6 (·, k, ·)` both broadcasts start from. -/
theorem absd_of_sub (a b : EReal) : max (a - b) (-(a - b)) = absd a b := rfl

/-- Steps 0 – 4, from the zero box. -/
theorem pay3_apply (v0 : FVec Ideal S128x512 .bf16) (v2 : FVec Ideal S512x1024 .bf16) (c : Fin 32) (i j : Fin 128) :
    k0_pay3 (F := Ideal) v0 v2 (ix3 c i j)
      = 0 + dd (k0_pay2 (F := Ideal) v0 v2) c i j 0 (by decide) + dd (k0_pay2 (F := Ideal) v0 v2) c i j 1 (by decide) + dd (k0_pay2 (F := Ideal) v0 v2) c i j 2 (by decide) + dd (k0_pay2 (F := Ideal) v0 v2) c i j 3 (by decide) + dd (k0_pay2 (F := Ideal) v0 v2) c i j 4 (by decide) := by
  unfold k0_pay3
  generalize k0_pay2 (F := Ideal) v0 v2 = v6
  simp only [addf_apply, subf_apply, absf_apply, broadcast_apply, broadcastTo_cols_apply, broadcastTo_rows_apply,
    sliceRow_apply, absd_of_sub, Ideal.ofBits_def, Ideal.ofBits_zero_f32]
  rfl

/-- Steps 5 – 10, onto the box so far. -/
theorem pay4_apply (v6 : FVec Ideal S32x32x128 .f32) (v52 : FVec Ideal S32x128x128 .f32) (c : Fin 32) (i j : Fin 128) :
    k0_pay4 (F := Ideal) v6 v52 (ix3 c i j)
      = v52 (ix3 c i j) + dd v6 c i j 5 (by decide) + dd v6 c i j 6 (by decide) + dd v6 c i j 7 (by decide) + dd v6 c i j 8 (by decide) + dd v6 c i j 9 (by decide) + dd v6 c i j 10 (by decide) := by
  unfold k0_pay4
  simp only [addf_apply, subf_apply, absf_apply, broadcast_apply, broadcastTo_cols_apply, broadcastTo_rows_apply,
    sliceRow_apply, absd_of_sub]
  rfl

/-- Step 11's matrix, `v6 (·, 11, ·)`. -/
theorem pay5_apply (v6 : FVec Ideal S32x32x128 .f32) (c : Fin 32) (b : Fin 128) :
    k0_pay5 (F := Ideal) v6 (ix2 c b) = v6 (ix3 c ⟨11, by decide⟩ b) := by
  unfold k0_pay5
  simp only [sliceRow_apply]

/-- Step 11's columns and rows. -/
theorem pay6_apply (v6 : FVec Ideal S32x32x128 .f32) (c : Fin 32) (i j : Fin 128) :
    k0_pay6 (F := Ideal) v6 (ix3 c i j) = v6 (ix3 c ⟨11, by decide⟩ i) := by
  unfold k0_pay6
  simp only [broadcastTo_cols_apply, pay5_apply]
theorem pay7_apply (v6 : FVec Ideal S32x32x128 .f32) (c : Fin 32) (i j : Fin 128) :
    k0_pay7 (F := Ideal) v6 (ix3 c i j) = v6 (ix3 c ⟨11, by decide⟩ j) := by
  unfold k0_pay7
  simp only [broadcastTo_rows_apply, pay5_apply]

/-- Step 11 from its columns and rows, then steps 12 – 17. -/
theorem pay8_apply (v6 : FVec Ideal S32x32x128 .f32) (v106 v111 v112 : FVec Ideal S32x128x128 .f32) (c : Fin 32) (i j : Fin 128) :
    k0_pay8 (F := Ideal) v6 v106 v111 v112 (ix3 c i j)
      = v106 (ix3 c i j) + absd (v111 (ix3 c i j)) (v112 (ix3 c i j)) + dd v6 c i j 12 (by decide) + dd v6 c i j 13 (by decide) + dd v6 c i j 14 (by decide) + dd v6 c i j 15 (by decide) + dd v6 c i j 16 (by decide) + dd v6 c i j 17 (by decide) := by
  unfold k0_pay8
  simp only [addf_apply, subf_apply, absf_apply, broadcast_apply, broadcastTo_cols_apply, broadcastTo_rows_apply,
    sliceRow_apply, absd_of_sub]
  rfl

/-- Step 18's matrix, `v6 (·, 18, ·)`. -/
theorem pay9_apply (v6 : FVec Ideal S32x32x128 .f32) (c : Fin 32) (b : Fin 128) :
    k0_pay9 (F := Ideal) v6 (ix2 c b) = v6 (ix3 c ⟨18, by decide⟩ b) := by
  unfold k0_pay9
  simp only [sliceRow_apply]

/-- Step 18 from its matrix `v171` and that matrix stood up as columns, then steps 19 – 24. -/
theorem pay11_apply (v6 : FVec Ideal S32x32x128 .f32) (v169 : FVec Ideal S32x128x128 .f32) (v171 : FVec Ideal S32x128 .f32)
    (c : Fin 32) (i j : Fin 128) :
    k0_pay11 (F := Ideal) v6 v169 v171 (shapeCast S32x128x1 v171 shapeCasts_S32x128_S32x128x1) (ix3 c i j)
      = v169 (ix3 c i j) + absd (v171 (ix2 c i)) (v171 (ix2 c j)) + dd v6 c i j 19 (by decide) + dd v6 c i j 20 (by decide) + dd v6 c i j 21 (by decide) + dd v6 c i j 22 (by decide) + dd v6 c i j 23 (by decide) + dd v6 c i j 24 (by decide) := by
  unfold k0_pay11
  simp only [addf_apply, subf_apply, absf_apply, broadcast_apply, broadcastTo_cols_apply, broadcastTo_rows_apply,
    sliceRow_apply, absd_of_sub]
  rfl

/-- Steps 25 – 30. -/
theorem pay12_apply (v6 : FVec Ideal S32x32x128 .f32) (v232 : FVec Ideal S32x128x128 .f32) (c : Fin 32) (i j : Fin 128) :
    k0_pay12 (F := Ideal) v6 v232 (ix3 c i j)
      = v232 (ix3 c i j) + dd v6 c i j 25 (by decide) + dd v6 c i j 26 (by decide) + dd v6 c i j 27 (by decide) + dd v6 c i j 28 (by decide) + dd v6 c i j 29 (by decide) + dd v6 c i j 30 (by decide) := by
  unfold k0_pay12
  simp only [addf_apply, subf_apply, absf_apply, broadcast_apply, broadcastTo_cols_apply, broadcastTo_rows_apply,
    sliceRow_apply, absd_of_sub]
  rfl

/-- Step 31's matrix, columns and rows. -/
theorem pay13_apply (v6 : FVec Ideal S32x32x128 .f32) (c : Fin 32) (b : Fin 128) :
    k0_pay13 (F := Ideal) v6 (ix2 c b) = v6 (ix3 c ⟨31, by decide⟩ b) := by
  unfold k0_pay13
  simp only [sliceRow_apply]
theorem pay14_apply (v6 : FVec Ideal S32x32x128 .f32) (c : Fin 32) (i j : Fin 128) :
    k0_pay14 (F := Ideal) v6 (ix3 c i j) = v6 (ix3 c ⟨31, by decide⟩ i) := by
  unfold k0_pay14
  simp only [broadcastTo_cols_apply, pay13_apply]
theorem pay15_apply (v6 : FVec Ideal S32x32x128 .f32) (c : Fin 32) (i j : Fin 128) :
    k0_pay15 (F := Ideal) v6 (ix3 c i j) = v6 (ix3 c ⟨31, by decide⟩ j) := by
  unfold k0_pay15
  simp only [broadcastTo_rows_apply, pay13_apply]

/-- The whole box after the 31 first steps, and step 31's columns and rows, at `(c, i, j)`: the left-to-right sum the steps
    leave, from zero. -/
theorem box_apply (v6 : FVec Ideal S32x32x128 .f32) (v52 : FVec Ideal S32x128x128 .f32) (c : Fin 32) (i j : Fin 128)
    (h52 : v52 (ix3 c i j) = 0 + dd v6 c i j 0 (by decide) + dd v6 c i j 1 (by decide) + dd v6 c i j 2 (by decide) + dd v6 c i j 3 (by decide) + dd v6 c i j 4 (by decide)) :
    k0_pay12 (F := Ideal) v6 (k0_pay11 v6 (k0_pay8 v6 (k0_pay4 v6 v52) (k0_pay6 v6) (k0_pay7 v6)) (k0_pay9 v6) (k0_pay10 v6)) (ix3 c i j)
        + absd (k0_pay14 (F := Ideal) v6 (ix3 c i j)) (k0_pay15 (F := Ideal) v6 (ix3 c i j))
      = 0 + dd v6 c i j 0 (by decide) + dd v6 c i j 1 (by decide) + dd v6 c i j 2 (by decide) + dd v6 c i j 3 (by decide) + dd v6 c i j 4 (by decide) + dd v6 c i j 5 (by decide) + dd v6 c i j 6 (by decide) + dd v6 c i j 7 (by decide) + dd v6 c i j 8 (by decide) + dd v6 c i j 9 (by decide) + dd v6 c i j 10 (by decide) + dd v6 c i j 11 (by decide) + dd v6 c i j 12 (by decide) + dd v6 c i j 13 (by decide) + dd v6 c i j 14 (by decide) + dd v6 c i j 15 (by decide) + dd v6 c i j 16 (by decide) + dd v6 c i j 17 (by decide) + dd v6 c i j 18 (by decide) + dd v6 c i j 19 (by decide) + dd v6 c i j 20 (by decide) + dd v6 c i j 21 (by decide) + dd v6 c i j 22 (by decide) + dd v6 c i j 23 (by decide) + dd v6 c i j 24 (by decide) + dd v6 c i j 25 (by decide) + dd v6 c i j 26 (by decide) + dd v6 c i j 27 (by decide) + dd v6 c i j 28 (by decide) + dd v6 c i j 29 (by decide) + dd v6 c i j 30 (by decide) + dd v6 c i j 31 (by decide) := by
  rw [pay12_apply, show k0_pay10 (F := Ideal) v6 = shapeCast S32x128x1 (k0_pay9 v6) shapeCasts_S32x128_S32x128x1 from rfl,
    pay11_apply, pay8_apply, pay4_apply, h52, pay6_apply, pay7_apply, pay9_apply, pay9_apply, pay14_apply, pay15_apply]
  rfl

end Cert.Mbd.Ker

end
-- ==== Proof.KProj.lean ====
/-
  The kernel body's projection, read at an index.

  At a grid point the body multiplies the whole `x` block `[128, 512]` by its block `[512, 1024]` of the flattened `T`
  into a zero accumulator, transposes the product to `[1024, 128]` and re-shapes it to `[32, 32, 128]`
  (local feature, kernel coordinate, batch row). Entry `(c, k, b)` is therefore the sum over `f` of `x (b, f)` times the
  block's column `32·c + k`.
-/
import proofs.«165932_j55035710931183_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Mbd.Ker

open Cert.KernelIdeal Cert.KernelIdeal.Gen Idealize.ShloMosaic Idealize.ShloMosaic.ValueIdx

/-- The product's operand indices at an output index and a contraction index, coordinate by coordinate. -/
theorem lhs_0 (i : S128x1024.Idx) (q : dot_S128x512_S512x1024_S128x1024_1_0_0_1_n_n.contr.Idx) :
    (dot_S128x512_S512x1024_S128x1024_1_0_0_1_n_n.lhsIdx i q 0).val = (i 0).val := by
  unfold DotDims.lhsIdx
  rw [dif_neg (show ¬(0 : Fin S128x512.rank) ∈ dot_S128x512_S512x1024_S128x1024_1_0_0_1_n_n.lhsBatch by decide), dif_pos (show (0 : Fin S128x512.rank) ∈ dot_S128x512_S512x1024_S128x1024_1_0_0_1_n_n.lhsNonContracting by decide)]
  rfl
theorem lhs_1 (i : S128x1024.Idx) (q : dot_S128x512_S512x1024_S128x1024_1_0_0_1_n_n.contr.Idx) :
    (dot_S128x512_S512x1024_S128x1024_1_0_0_1_n_n.lhsIdx i q 1).val = (q ⟨0, by decide⟩).val :=
  dot_S128x512_S512x1024_S128x1024_1_0_0_1_n_n.lhsIdx_val_of_single rfl i q
theorem rhs_0 (i : S128x1024.Idx) (q : dot_S128x512_S512x1024_S128x1024_1_0_0_1_n_n.contr.Idx) :
    (dot_S128x512_S512x1024_S128x1024_1_0_0_1_n_n.rhsIdx i q 0).val = (q ⟨0, by decide⟩).val :=
  dot_S128x512_S512x1024_S128x1024_1_0_0_1_n_n.rhsIdx_val_of_single rfl i q
theorem rhs_1 (i : S128x1024.Idx) (q : dot_S128x512_S512x1024_S128x1024_1_0_0_1_n_n.contr.Idx) :
    (dot_S128x512_S512x1024_S128x1024_1_0_0_1_n_n.rhsIdx i q 1).val = (i 1).val := by
  unfold DotDims.rhsIdx
  rw [dif_neg (show ¬(1 : Fin S512x1024.rank) ∈ dot_S128x512_S512x1024_S128x1024_1_0_0_1_n_n.rhsBatch by decide), dif_pos (show (1 : Fin S512x1024.rank) ∈ dot_S128x512_S512x1024_S128x1024_1_0_0_1_n_n.rhsNonContracting by decide)]
  rfl

/-- The matrix product into the zero accumulator at `(b, q)`: the sum over the one contracted coordinate. -/
theorem matmul_zero_apply (l : FVec Ideal S128x512 .bf16) (r : FVec Ideal S512x1024 .bf16) (b : Fin 128) (q : Fin 1024) :
    matmul dot_S128x512_S512x1024_S128x1024_1_0_0_1_n_n none l r (constant (F := Ideal) S128x1024 .f32 0x00000000#32) (ix2 b q)
      = ∑ f : Fin 512, l (ix2 b f) * r (ix2 f q) := by
  simp only [matmul]
  rw [Ideal.matmul_constant_zero_apply,
    ← Equiv.sum_comp (contrEquiv1 dot_S128x512_S512x1024_S128x1024_1_0_0_1_n_n 512 rfl rfl).symm]
  refine Finset.sum_congr rfl fun f _ => ?_
  have hf := contrEquiv1_symm_val dot_S128x512_S512x1024_S128x1024_1_0_0_1_n_n 512 rfl rfl f
  have el : dot_S128x512_S512x1024_S128x1024_1_0_0_1_n_n.lhsIdx (ix2 b q) ((contrEquiv1 dot_S128x512_S512x1024_S128x1024_1_0_0_1_n_n 512 rfl rfl).symm f) = ix2 b f :=
    funext fun a => Fin.ext (by
      match a with
      | ⟨0, _⟩ => exact lhs_0 _ _
      | ⟨1, _⟩ => exact (lhs_1 _ _).trans hf)
  have er : dot_S128x512_S512x1024_S128x1024_1_0_0_1_n_n.rhsIdx (ix2 b q) ((contrEquiv1 dot_S128x512_S512x1024_S128x1024_1_0_0_1_n_n 512 rfl rfl).symm f) = ix2 f q :=
    funext fun a => Fin.ext (by
      match a with
      | ⟨0, _⟩ => exact (rhs_0 _ _).trans hf
      | ⟨1, _⟩ => exact rhs_1 _ _)
  rw [el, er]

/-- Column `32·c + k` of a block of 1024 columns. -/
abbrev col (c k : Fin 32) : Fin 1024 := ⟨32 * c.val + k.val, by have := c.isLt; have := k.isLt; omega⟩

/-- The body's projection at `(c, k, b)`. -/
theorem pay2_apply (v0 : FVec Ideal S128x512 .bf16) (v2 : FVec Ideal S512x1024 .bf16) (c k : Fin 32) (b : Fin 128) :
    k0_pay2 (F := Ideal) v0 v2 (ix3 c k b) = ∑ f : Fin 512, v0 (ix2 b f) * v2 (ix2 f (col c k)) := by
  unfold k0_pay2
  dsimp only
  rw [shapeCast_self, shapeCast_self]
  refine (shapeCast_apply _ shapeCasts_S1024x128_S32x32x128 (ix3 c k b) (ix2 (col c k) b) ?_).trans ?_
  · rw [Shape.rowMajor_val_two, Shape.rowMajor_val_three]
    show (32 * c.val + k.val) * 128 + b.val = (c.val * 32 + k.val) * 128 + b.val
    omega
  refine (transpose_ix2_apply _ transposes_S128x1024_p1_0_S1024x128 (col c k) b).trans ?_
  exact matmul_zero_apply v0 v2 b (col c k)

end Cert.Mbd.Ker

end
-- ==== Proof.KBody.lean ====
/-
  What the kernel body leaves in its output block, entry by entry.

  After the 32 accumulation steps the body negates the box (as `0 - box`), exponentiates, sums over the box's MIDDLE axis
  (the row index `i` the columns were broadcast from) and takes one off. Entry `(c, j)` of the block is therefore
  `(∑ i, exp (0 - (0 + ∑ₖ |P i c k - P j c k|))) - 1` with `P` the block projection — the feature `(j, c)` of `P`, the
  distance being symmetric.
-/
import proofs.«165932_j55035710931183_2_alg».proof.Proof.Gen.KernelIdeal.Frame
import proofs.«165932_j55035710931183_2_alg».proof.Proof.KSteps
import proofs.«165932_j55035710931183_2_alg».proof.Proof.KProj

noncomputable section

namespace Cert.Mbd.Ker

open Cert.KernelIdeal Cert.KernelIdeal.Gen Idealize.ShloMosaic Idealize.ShloMosaic.ValueIdx Cert.Mbd

/-- The 32 terms added one after another from zero are their sum over the kernel coordinate. -/
theorem sum_dd (v6 : FVec Ideal S32x32x128 .f32) (c : Fin 32) (i j : Fin 128) :
    ∑ k : Fin 32, absd (v6 (ix3 c k i)) (v6 (ix3 c k j))
      = 0 + dd v6 c i j 0 (by decide) + dd v6 c i j 1 (by decide) + dd v6 c i j 2 (by decide) + dd v6 c i j 3 (by decide) + dd v6 c i j 4 (by decide) + dd v6 c i j 5 (by decide) + dd v6 c i j 6 (by decide) + dd v6 c i j 7 (by decide) + dd v6 c i j 8 (by decide) + dd v6 c i j 9 (by decide) + dd v6 c i j 10 (by decide) + dd v6 c i j 11 (by decide) + dd v6 c i j 12 (by decide) + dd v6 c i j 13 (by decide) + dd v6 c i j 14 (by decide) + dd v6 c i j 15 (by decide) + dd v6 c i j 16 (by decide) + dd v6 c i j 17 (by decide) + dd v6 c i j 18 (by decide) + dd v6 c i j 19 (by decide) + dd v6 c i j 20 (by decide) + dd v6 c i j 21 (by decide) + dd v6 c i j 22 (by decide) + dd v6 c i j 23 (by decide) + dd v6 c i j 24 (by decide) + dd v6 c i j 25 (by decide) + dd v6 c i j 26 (by decide) + dd v6 c i j 27 (by decide) + dd v6 c i j 28 (by decide) + dd v6 c i j 29 (by decide) + dd v6 c i j 30 (by decide) + dd v6 c i j 31 (by decide) := by
  have h := Fin.sum_univ_eq_sum_range (fun k => if h : k < 32 then dd v6 c i j k h else 0) 32
  have e : ∑ k : Fin 32, absd (v6 (ix3 c k i)) (v6 (ix3 c k j))
      = ∑ k : Fin 32, (fun k => if h : k < 32 then dd v6 c i j k h else 0) k.val :=
    Finset.sum_congr rfl fun k _ => by simp only [dif_pos k.isLt]; rfl
  rw [e, h]
  simp only [Finset.sum_range_succ, Finset.sum_range_zero]
  rfl

theorem exp_apply {s : Shape} {φ : FTy} (a : FVec Ideal s φ) (i : s.Idx) : exp a i = Ideal.exp (a i) := rfl

/-- The index the sum over the middle axis reads at: the reduced index `(c, j)` with `i` put back in the middle. -/
theorem lift_eq (c : Fin 32) (j : Fin 128) (i : Fin 128) :
    reduces_S32x128x128_S32x128.lift (ix2 c j) i = ix3 c i j :=
  funext fun a => Fin.ext (by
    match a with
    | ⟨0, _⟩ => rfl
    | ⟨1, _⟩ => rfl
    | ⟨2, _⟩ => rfl)

set_option backward.isDefEq.respectTransparency.types false in
/-- The last step, the negative exponential, the sum over the middle axis and the one taken off, at `(c, j)`. -/
theorem pay1_apply (v286 v291 v292 : FVec Ideal S32x128x128 .f32) (c : Fin 32) (j : Fin 128) :
    k0_pay1 (F := Ideal) v286 v291 v292 (ix2 c j)
      = (∑ i : Fin 128, Ideal.exp (0 - (v286 (ix3 c i j) + absd (v291 (ix3 c i j)) (v292 (ix3 c i j)))))
          - Ideal.ofBits .f32 0x3F800000#32 := by
  unfold k0_pay1
  dsimp only
  rw [subf_apply, broadcast_apply]
  refine congrArg (· - _) ((Ideal.multiReduction_add_single _ _ reduces_S32x128x128_S32x128 _ _ (ix2 c j)).trans ?_)
  refine Finset.sum_congr rfl fun (i : Fin 128) _ => ?_
  rw [lift_eq c j i]
  simp only [exp_apply, subf_apply, addf_apply, absf_apply, broadcast_apply, absd_of_sub, Ideal.ofBits_def,
    Ideal.ofBits_zero_f32]

theorem hz : (![0, 0] : Fin 2 → Nat) = fun _ => 0 := funext fun a => by fin_cases a <;> rfl

/-- The output block after the body, at `(c, j)`: the feature `(j, c)` of the block projection
    `P b c k = ∑ f, x0 (b, f) · x1 (f, 32·c + k)`. -/
theorem body_apply (x0 : FVec Ideal S128x512 .bf16) (x1 : FVec Ideal S512x1024 .bf16) (c : Fin 32) (j : Fin 128) :
    out0_2 (F := Ideal) x0 x1 (ix2 c j)
      = featOf (fun (b : Fin 128) (c' : Fin 32) (k : Fin 32) => ∑ f : Fin 512, x0 (ix2 b f) * x1 (ix2 f (col c' k))) j c := by
  unfold out0_2
  rw [View.canon_unit_zero hz]
  simp only [View.ld_unit_zero (S := S128x512) hz, View.ld_unit_zero (S := S512x1024) hz]
  rw [pay1_apply]
  unfold featOf
  refine congrArg (· - _) (Finset.sum_congr rfl fun i _ => ?_)
  rw [box_apply _ _ c i j (pay3_apply x0 x1 c i j), ← sum_dd, zero_sub]
  unfold l1
  refine congrArg (fun s => Ideal.exp (-s)) (Finset.sum_congr rfl fun k _ => ?_)
  rw [pay2_apply, pay2_apply]
  exact absd_comm _ _

end Cert.Mbd.Ker

end
-- ==== Proof.KFinal.lean ====
/-
  From the blocks to the arrays, and the kernel program's result.

  The region finds `x` as launched (the change to bf16 is the identity on extended reals) and `T` flattened to
  `[512, 4096]`: flat column `q` is `T (·, q / 32, q % 32)`. Grid point `t` reads the whole `x` and columns
  `1024·t … 1024·t + 1023` of the flattened `T`, so its block projection at local feature `c` is the projection at
  feature `32·t + c`; it writes rows `32·t … 32·t + 31` of the `[128, 128]` output (feature, batch row). The four blocks
  tile that array, which therefore ends as the transposed feature array; the program then transposes it back and joins it
  to `x` along the columns.
-/
import proofs.«165932_j55035710931183_2_alg».proof.Proof.KBody
import Idealize.ShloMosaic.Lib.Pipeline.Value
import Idealize.ShloMosaic.Lib.StableHlo.Run
import Idealize.ShloMosaic.Lib.Tactic

noncomputable section

namespace Cert.Mbd.Ker

open Cert.KernelIdeal Cert.KernelIdeal.Gen Idealize.ShloMosaic Idealize.ShloMosaic.TcCoe Idealize.SL.Sem
open Idealize.ShloMosaic.ValueIdx Cert.Mbd
open Idealize.ShloMosaic.Pipeline (Dat)

variable (m : (ℓ : Loc nD τ sig) → Buf (Elt Ideal) ℓ) (ρ : Dev nD → PrngReg)

/-- The two argument arrays of core `c`, as launched. -/
abbrev X (c : Dev nD) : S128x512.Idx → EReal := m ((c : Thread nD τ).loc main_arg0)
abbrev T (c : Dev nD) : S512x128x32.Idx → EReal := m ((c : Thread nD τ).loc main_arg1)

/-- The region finds `x` as launched. -/
theorem V_x (c : Dev nD) : (V m c main_v0 : S128x512.Idx → EReal) = X m c := by
  show StableHlo.after hostOps0 (fun b => m (c, b)) (Proc.devRef .tc main_v0) = _
  after_results
  rfl

/-- The region finds `T` flattened to `[512, 4096]`. -/
theorem V_T (c : Dev nD) :
    (V m c main_v2 : S512x4096.Idx → EReal) = shapeCast S512x4096 (T m c) shapeCasts_S512x128x32_S512x4096 := by
  show StableHlo.after hostOps0 (fun b => m (c, b)) (Proc.devRef .tc main_v2) = _
  after_results
  rfl

/-- Flat column `q` of the flattened `T` is its column `(o, k)` when `q = 32·o + k`. -/
theorem flatT_apply (Tc : S512x128x32.Idx → EReal) (f : Fin 512) (q : Fin 4096) (o : Fin 128) (k : Fin 32)
    (hq : q.val = 32 * o.val + k.val) :
    shapeCast S512x4096 Tc shapeCasts_S512x128x32_S512x4096 (ix2 f q) = Tc (ix3 f o k) :=
  shapeCast_apply Tc shapeCasts_S512x128x32_S512x4096 _ _ (by
    rw [Shape.rowMajor_val_three, Shape.rowMajor_val_two]
    show (f.val * 128 + o.val) * 32 + k.val = f.val * 4096 + q.val
    omega)

/-- The printed index maps over the grid: `x` is never moved, `T`'s block moves along the columns and the output's along the
    rows, one block per point. -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = t.val ∧ win0_2.index t (1 : Fin 2) = 0 :=
  (by decide +kernel : ∀ t : Fin grid0.N, _)

/-- The `x` block at any point is `x`. -/
theorem xblk_apply (c : Dev nD) (t : Fin cfg0.N) (b : Fin 128) (f : Fin 512) :
    (iblk m c 0 t : FVec Ideal S128x512 .bf16) (ix2 b f) = X m c (ix2 b f) := by
  obtain ⟨e0, e1, -, -, -, -⟩ := idx_facts t
  unfold iblk
  rw [View.read_apply]
  show V m c main_v0 _ = _
  rw [V_x]
  refine congrArg _ (funext fun a => Fin.ext ?_)
  match a with
  | ⟨0, _⟩ => show win0_0.index t (0 : Fin 2) * 128 + 1 * b.val = b.val; rw [e0]; omega
  | ⟨1, _⟩ => show win0_0.index t (1 : Fin 2) * 512 + 1 * f.val = f.val; rw [e1]; omega

/-- The `T` block at point `t`, at local column `32·c + k`, is `T` at feature `32·t + c` and kernel coordinate `k`. -/
theorem tblk_apply (c : Dev nD) (t : Fin cfg0.N) (f : Fin 512) (cc k : Fin 32) (o : Fin 128) (ho : o.val = 32 * t.val + cc.val) :
    (iblk m c 1 t : FVec Ideal S512x1024 .bf16) (ix2 f (col cc k)) = T m c (ix3 f o k) := by
  obtain ⟨-, -, e2, e3, -, -⟩ := idx_facts t
  have ht : t.val < 4 := by have := t.isLt; have hN : cfg0.N = 4 := N_0; omega
  have hcc := cc.isLt
  have hk := k.isLt
  unfold iblk
  rw [View.read_apply]
  show V m c main_v2 _ = _
  rw [V_T]
  refine (congrArg _ (funext fun a => Fin.ext ?_)).trans
    (flatT_apply (T m c) f ⟨1024 * t.val + (32 * cc.val + k.val), by omega⟩ o k (by show 1024 * t.val + (32 * cc.val + k.val) = _; omega))
  match a with
  | ⟨0, _⟩ => show win0_1.index t (0 : Fin 2) * 512 + 1 * f.val = f.val; rw [e2]; omega
  | ⟨1, _⟩ => show win0_1.index t (1 : Fin 2) * 1024 + 1 * (32 * cc.val + k.val) = 1024 * t.val + (32 * cc.val + k.val); rw [e3]; omega

/-- What the output array `[128, 128]` (feature, batch row) ends holding: the feature array transposed. -/
def featT (Xc : S128x512.Idx → EReal) (Tc : S512x128x32.Idx → EReal) : S128x128.Idx → EReal :=
  fun i => featOf (proj Xc Tc) (i 1) (i 0)

/-- At a point, stated over plain blocks: if the blocks read `x` whole and `T`'s features `32·t …`, the body's entry
    `(cc, j)` is the transposed feature array at `(32·t + cc, j)`. -/
theorem point_eq (Xc : S128x512.Idx → EReal) (Tc : S512x128x32.Idx → EReal) (x0 : FVec Ideal S128x512 .bf16)
    (x1 : FVec Ideal S512x1024 .bf16) (tt : ℕ)
    (h0 : ∀ b f, x0 (ix2 b f) = Xc (ix2 b f))
    (h1 : ∀ f (cc k : Fin 32) (o : Fin 128), o.val = 32 * tt + cc.val → x1 (ix2 f (col cc k)) = Tc (ix3 f o k))
    (y : S32x128.Idx) (i : S128x128.Idx) (hi0 : (i 0).val = 32 * tt + (y 0).val) (hi1 : (i 1).val = (y 1).val) :
    out0_2 (F := Ideal) x0 x1 y = featT Xc Tc i := by
  obtain ⟨cc, j, rfl⟩ : ∃ (cc : Fin 32) (j : Fin 128), y = ix2 cc j := ⟨y 0, y 1, eq_ix2 y⟩
  obtain ⟨o, j', rfl⟩ : ∃ (o : Fin 128) (j' : Fin 128), i = ix2 o j' := ⟨i 0, i 1, eq_ix2 i⟩
  obtain rfl : j = j' := (Fin.ext hi1).symm
  rw [body_apply]
  show featOf _ j cc = featOf (proj Xc Tc) j o
  refine featOf_congr _ _ cc o (fun b k => ?_) j
  unfold proj
  exact Finset.sum_congr rfl fun f _ => by rw [h0, h1 f cc k o hi0]

/-- WHAT POINT `t` WRITES BACK is block `t` of the transposed feature array. -/
theorem flushed_eq (c : Dev nD) (t : Fin cfg0.N) :
    (dats m 0 c).flushed 2 t = ((cfg0.win 2).blk t).view.read (Elt Ideal) (featT (X m c) (T m c)) := by
  obtain ⟨-, -, -, -, e4, e5⟩ := idx_facts t
  show (cfg0.win 2).cut (grid0.coords t) ((dats m 0 c).after 2 t) = _
  rw [after0_2]
  funext y
  show out0_2 (iblk m c 0 t) (iblk m c 1 t) y = featT (X m c) (T m c) (((cfg0.win 2).blk t).view.emb y)
  refine point_eq (X m c) (T m c) (iblk m c 0 t) (iblk m c 1 t) t.val (fun b f => xblk_apply m c t b f)
    (fun f cc k o ho => tblk_apply m c t f cc k o ho) y (((cfg0.win 2).blk t).view.emb y) ?_ ?_
  · show win0_2.index t (0 : Fin 2) * 32 + 1 * (y 0).val = 32 * t.val + (y 0).val
    rw [e4]; omega
  · show win0_2.index t (1 : Fin 2) * 128 + 1 * (y 1).val = (y 1).val
    rw [e5]; omega

/-- An index of the output array is in point `t`'s block iff each coordinate is in the block's range on its axis. -/
theorem mem_blk (t : Fin cfg0.N) (i : S128x128.Idx) :
    i ∈ ((cfg0.win 2).blk t).view.set ↔ ∀ a : Fin 2, win0_2.index t a * S32x128.size a ≤ (i a).val
      ∧ (i a).val < win0_2.index t a * S32x128.size a + S32x128.size a := by
  show i ∈ ((View.whole main_v3).slice (win0_2.rect t)).set ↔ _
  rw [View.set_slice_whole, Rect.mem_set_unit]
  exact Iff.rfl

/-- Row `r` of the output array is in the block of point `r / 32`. -/
theorem cover (i : S128x128.Idx) :
    ∃ t : Fin cfg0.N, (cfg0.win 2).flush t = true ∧ i ∈ ((cfg0.win 2).blk t).view.set := by
  have h0 : (i 0).val < 128 := (i 0).isLt
  have h1 : (i 1).val < 128 := (i 1).isLt
  have hN : cfg0.N = 4 := N_0
  refine ⟨⟨(i 0).val / 32, by rw [hN]; omega⟩, flush0_2 _, ?_⟩
  obtain ⟨-, -, -, -, e4, e5⟩ := idx_facts ⟨(i 0).val / 32, by rw [hN]; omega⟩
  rw [mem_blk]
  intro a
  match a with
  | ⟨0, _⟩ =>
    show win0_2.index _ (0 : Fin 2) * 32 ≤ (i 0).val ∧ (i 0).val < win0_2.index _ (0 : Fin 2) * 32 + 32
    rw [e4]; show (i 0).val / 32 * 32 ≤ (i 0).val ∧ (i 0).val < (i 0).val / 32 * 32 + 32; omega
  | ⟨1, _⟩ =>
    show win0_2.index _ (1 : Fin 2) * 128 ≤ (i 1).val ∧ (i 1).val < win0_2.index _ (1 : Fin 2) * 128 + 128
    rw [e5]; omega

/-- THE OUTPUT ARRAY after the region: the transposed feature array. -/
theorem final (c : Dev nD) : (dats m 0 c).arrAt 2 cfg0.N = featT (X m c) (T m c) :=
  (dats m 0 c).arrAt_eq_of_cover 2 (featT (X m c) (T m c)) (fun t _ => flushed_eq m c t) cover

/-- The transposed feature array transposed back is the feature array. -/
theorem transpose_featT (Xc : S128x512.Idx → EReal) (Tc : S512x128x32.Idx → EReal) :
    transpose S128x128 [1, 0] (featT Xc Tc) transposes_S128x128_S128x128_1_0 = feat Xc Tc := by
  funext i
  obtain ⟨j, o, rfl⟩ : ∃ (j : Fin 128) (o : Fin 128), i = ix2 j o := ⟨i 0, i 1, eq_ix2 i⟩
  exact transpose_ix2_apply (featT Xc Tc) transposes_S128x128_S128x128_1_0 j o

/-- The program's result: `x` joined along the columns with the feature array. -/
def result (Xc : S128x512.Idx → EReal) (Tc : S512x128x32.Idx → EReal) : S128x640.Idx → EReal :=
  concatenate S128x640 1 [⟨S128x512, Xc⟩, ⟨S128x128, feat Xc Tc⟩] concatenates_S128x512_S128x128_S128x640_d1

/-- The lines after the region — transpose the output array, join it to `x` — leave `result` in the program's result buffer. -/
theorem tail_eq (c : Dev nD) :
    (Pipeline.afterTail₀ cfgs (dats m) 0 (V0 m) [hostOps1] c main_v5 : S128x640.Idx → EReal) = result (X m c) (T m c) := by
  unfold Pipeline.afterTail₀
  show StableHlo.after hostOps1 _ (Proc.devRef .tc main_v5) = _
  after_results
  have e0 : Pipeline.withArrays (cfgs 0).spec c (V0 m c) (fun w => (dats m 0 c).arrAt w (cfgs 0).N) (Proc.devRef .tc main_arg0)
      = X m c :=
    (Pipeline.withArrays_of_ne _ c (V0 m c) _ main_arg0 (by exact (by decide : ∀ w, Pipeline.arrRef spec0 w ≠ main_arg0))).trans
      (V_main_arg0 m c)
  have e3 : Pipeline.withArrays (cfgs 0).spec c (V0 m c) (fun w => (dats m 0 c).arrAt w (cfgs 0).N) (Proc.devRef .tc main_v3)
      = featT (X m c) (T m c) :=
    (Pipeline.withArrays_arr spec0 launch0.win.arr_inj c _ _ 2).trans (final m c)
  rw [e0, e3, transpose_featT]
  rfl

/-- THE RUN of the kernel program, read: its result buffer ends at `result` of the arguments, the arguments unchanged. -/
theorem run : θ_run defs (onTc (τ := τ) (main (F := Ideal))) ⟨m, fun _ => 0, ρ⟩ fun r => ∀ c : Dev nD,
      r.2.mem ((c.tc : Thread nD τ).loc main_v5) = result (X m c) (T m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Mbd.Ker

end
-- ==== Proof.lean ====
/-
  The kernel computes minibatch-discrimination features: with `M b o k = ∑ f, x (b, f) · T (f, o, k)`, feature `(j, o)` is
  `(∑ i, exp (-(∑ k, |M j o k - M i o k|))) - 1`, and the result is `x` joined along the columns with the `[128, 128]`
  feature array (Proof/Spec.lean).

  The reference computes it literally (Proof/RefSide.lean, over the generated reading of its run). The kernel tiles the
  128 features into four blocks of 32; a grid point projects `x` against its 1024 flat columns of `T`, accumulates the 32
  absolute differences `|M i o k - M j o k|` one kernel coordinate at a time from zero, exponentiates the negative, sums
  over `i` and takes one off, and writes rows `32·t …` of a (feature, batch row) array that the program transposes back
  (Proof/KProj.lean, KSteps.lean, KBody.lean, KFinal.lean). The two agree on all extended reals because `|a - b| = |b - a|`
  holds there (at the infinities too) and sums of extended reals commute and associate: the inputs' finiteness is not used.
  The idealization rewrote nothing, so there is nothing to preserve.
-/
import proofs.«165932_j55035710931183_2_alg».proof.Defs
import proofs.«165932_j55035710931183_2_alg».proof.Proof.Gen.Kernel
import proofs.«165932_j55035710931183_2_alg».proof.Proof.Gen.Kernel.Frame
import proofs.«165932_j55035710931183_2_alg».proof.Proof.Gen.KernelIdeal
import proofs.«165932_j55035710931183_2_alg».proof.Proof.Gen.KernelIdeal.Frame
import proofs.«165932_j55035710931183_2_alg».proof.Proof.Gen.ReferenceIdeal
import proofs.«165932_j55035710931183_2_alg».proof.Proof.Gen.ReferenceIdeal.Run
import proofs.«165932_j55035710931183_2_alg».proof.Proof.Gen.ReferenceIdeal.Read
import proofs.«165932_j55035710931183_2_alg».proof.Proof.Gen.Pre_finite_inputs
import proofs.«165932_j55035710931183_2_alg».proof.Proof.RefSide
import proofs.«165932_j55035710931183_2_alg».proof.Proof.KFinal
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with `x` joined to the feature array of the (agreeing) arguments. -/
theorem algebraic : Cert.algebraic_KernelIdeal_ReferenceIdeal := by
  intro m ρ m' ρ' _ hagree
  refine ⟨fun c => Cert.Mbd.Ker.result (Cert.Mbd.Ker.X m c) (Cert.Mbd.Ker.T m c), Cert.Mbd.Ker.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v15_eq _ _).trans ?_
  unfold Cert.ReferenceIdeal.Read.val_main_v15
  rw [Cert.Mbd.Ref.features_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
